-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel

variable [Facts]

def fn {F : FTy → Type} [FloatOps F] (main_arg0 : FVec F S8x2048x256 .f32) (main_arg1 : FVec F S8x2048x256 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S8x2048x256 .f32 := Host.absf main_arg1
  let main_cst_0 : FVec F S_ .f32 := constant S_ .f32 0x7F800000#32
  let main_v5 : FVec F S8x2048x256 .f32 := broadcastInDim S8x2048x256 ![] bcast_S_S8x2048x256 main_cst_0
  let main_v6 : IVec S8x2048x256 1 := cmpf .olt main_v4 main_v5
  let main_c_1 : IVec S_ 1 := constantI S_ 1 1#1
  let main_v7 : IVec S_ 1 := (fun x v => Host.reduce IntOp.andi x v reducesTo_S8x2048x256_S_d0_1_2 h_S_) main_v6 main_c_1
  let main_v8 : IVec S_ 1 := andi main_v3 main_v7
  main_v8
-- ==== Kernel.lean ====
abbrev S8x2048x256 : Shape := ⟨3, ![8, 2048, 256]⟩
abbrev S8x2048x512 : Shape := ⟨3, ![8, 2048, 512]⟩
abbrev S1x512x256 : Shape := ⟨3, ![1, 512, 256]⟩
abbrev S1x2048x256 : Shape := ⟨3, ![1, 2048, 256]⟩
abbrev S1x512x512 : Shape := ⟨3, ![1, 512, 512]⟩
abbrev S512x256 : Shape := ⟨2, ![512, 256]⟩
abbrev S2048x256 : Shape := ⟨2, ![2048, 256]⟩
abbrev S256x2048 : Shape := ⟨2, ![256, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S8x2048x256, .f32⟩
  | .hbm, ⟨1, _⟩ => ⟨S8x2048x256, .f32⟩
  | .hbm, ⟨2, _⟩ => ⟨S8x2048x512, .f32⟩
  | .local _ .vmem, ⟨0, _⟩ => ⟨S1x512x256, .f32⟩
  | .local _ .vmem, ⟨1, _⟩ => ⟨S1x512x256, .f32⟩
  | .local _ .vmem, ⟨2, _⟩ => ⟨S1x2048x256, .f32⟩
  | .local _ .vmem, ⟨3, _⟩ => ⟨S1x2048x256, .f32⟩
  | .local _ .vmem, ⟨4, _⟩ => ⟨S1x512x512, .f32⟩
  | .local _ .vmem, ⟨5, _⟩ => ⟨S1x512x512, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  transposes_S2048x256_p1_0_S256x2048 : S2048x256.Transposes [1, 0] S256x2048
  reduces_S512x2048_S512 : S512x2048.Reduces [1] S512
  shapeCasts_S512_S512x1 : S512.ShapeCasts S512x1
  broadcasts_S512x1_S512x2048 : S512x1.Broadcasts S512x2048
  inb_S1x512x512_S1x512x256_0_0_0 : ∀ a, (![0, 0, 0] : Fin 3 → Nat) a + S1x512x256.size a ≤ S1x512x512.size a
  shapeCasts_S512x256_S1x512x256 : S512x256.ShapeCasts S1x512x256
  inb_S1x512x512_S1x512x256_0_0_256 : ∀ a, (![0, 0, 256] : Fin 3 → Nat) a + S1x512x256.size a ≤ S1x512x512.size a
  dot_S512x256_S256x2048_S512x2048_1_0_0_1_n_n_wf : DotDims.WF S512x256 S256x2048 S512x2048 [1] [0] [0] [1] [] []
  dot_S512x2048_S2048x256_S512x256_1_0_0_1_n_n_wf : DotDims.WF S512x2048 S2048x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S8x2048x256.size a
  hwx0_0 : ∀ i : grid0.Coords, EltTy.bits .f32 = 32 ∨ (Rect.block (s := S8x2048x256) S1x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S8x2048x256.size a
  hwx0_1 : ∀ i : grid0.Coords, EltTy.bits .f32 = 32 ∨ (Rect.block (s := S8x2048x256) S1x2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S8x2048x512.size a
  hwx0_2 : ∀ i : grid0.Coords, EltTy.bits .f32 = 32 ∨ (Rect.block (s := S8x2048x512) S1x512x512.size (cc0_transform_2 i) (hinb0_2 i)).WholeWords (EltTy.packing .f32)

variable [Facts₀]

def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf

abbrev win0_0 : Pipeline.Window sig grid0 :=
  Pipeline.Window.ofSpec (Memref.whole main_arg1) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x256 : Shape := ⟨3, ![8, 2048, 256]⟩
abbrev S8x2048x2048 : Shape := ⟨3, ![8, 2048, 2048]⟩
abbrev S_ : Shape := ⟨0, ![]⟩
abbrev S8x2048 : Shape := ⟨2, ![8, 2048]⟩
abbrev S8x1x2048 : Shape := ⟨3, ![8, 1, 2048]⟩
abbrev S8x2048x512 : Shape := ⟨3, ![8, 2048, 512]⟩

abbrev nBuf : Space → Nat
  | .hbm => 19
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S8x2048x256, .f32⟩
  | .hbm, ⟨2, _⟩ => ⟨S8x2048x2048, .f32⟩
  | .hbm, ⟨3, _⟩ => ⟨S_, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S8x1x2048, .f32⟩
  | .hbm, ⟨9, _⟩ => ⟨S8x2048x2048, .f32⟩
  | .hbm, ⟨10, _⟩ => ⟨S8x2048x2048, .f32⟩
  | .hbm, ⟨11, _⟩ => ⟨S8x2048x2048, .f32⟩
  | .hbm, ⟨12, _⟩ => ⟨S_, .f32⟩
  | .hbm, ⟨13, _⟩ => ⟨S8x2048, .f32⟩
  | .hbm, ⟨14, _⟩ => ⟨S8x1x2048, .f32⟩
  | .hbm, ⟨15, _⟩ => ⟨S8x2048x2048, .f32⟩
  | .hbm, ⟨16, _⟩ => ⟨S8x2048x2048, .f32⟩
  | .hbm, ⟨17, _⟩ => ⟨S8x2048x256, .f32⟩
  | .hbm, ⟨18, _⟩ => ⟨S8x2048x512, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  reducesTo_S8x2048x2048_S8x2048_d1 : S8x2048x2048.ReducesTo [1] S8x2048
  h_S_ : 0 < S_.numel
  bcast_S_S8x2048 : S_.BroadcastsInDim S8x2048 (![] : Fin 0 → Fin S8x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  concatenates_S8x2048x256_S8x2048x256_S8x2048x512_d2 : Shape.Concatenates [S8x2048x256, S8x2048x256] S8x2048x512 2
  dot_S8x2048x256_S8x2048x256_S8x2048x2048_2_2_1_1_0_0_wf : DotDims.WF S8x2048x256 S8x2048x256 S8x2048x2048 [2] [2] [1] [1] [0] [0]
  dot_S8x2048x2048_S8x2048x256_S8x2048x256_1_1_2_2_0_0_wf : DotDims.WF S8x2048x2048 S8x2048x256 S8x2048x256 [1] [1] [2] [2] [0] [0]

variable [Facts₀]

def dot_S8x2048x256_S8x2048x256_S8x2048x2048_2_2_1_1_0_0 : DotDims S8x2048x256 S8x2048x256 S8x2048x2048 where
  lhsContracting := [2]
  rhsContracting := [2]
  lhsNonContracting := [1]
  rhsNonContracting := [1]
  lhsBatch := [0]
  rhsBatch := [0]
  wf := dot_S8x2048x256_S8x2048x256_S8x2048x2048_2_2_1_1_0_0_wf
def dot_S8x2048x2048_S8x2048x256_S8x2048x256_1_1_2_2_0_0 : DotDims S8x2048x2048 S8x2048x256 S8x2048x256 where
  lhsContracting := [1]
  rhsContracting := [1]
  lhsNonContracting := [2]
  rhsNonContracting := [2]
  lhsBatch := [0]
  rhsBatch := [0]
  wf := dot_S8x2048x2048_S8x2048x256_S8x2048x256_1_1_2_2_0_0_wf

class Facts : Prop extends Facts₀ where

variable [Facts]
-- ==== Proof.AttnSpec.lean ====
/-
  Dot-product attention of one query row against a table of keys that are also the values, and the array the
  certificate's two programs both end holding: the decoder rows with their attended context appended.

  For a query `q : Fin 256 → EReal` and keys `K : Fin 2048 → Fin 256 → EReal`:
    score e  = ∑ d, q d · K e d                       the query against key `e`
    top      = max(-∞, max over e of score e)         the largest score (the maximum is folded from -∞)
    weight e = exp (score e - top)
    total    = ∑ e, weight e
    attend d = ∑ e, (weight e / total) · K e d        the softmax-weighted mean of the keys' lane `d`
  all on the extended reals, division the ideal one. The array `out enc dec`, of shape [8, 2048, 512], holds at
  `(b, t, c)` the decoder's entry `dec (b, t, c)` for `c < 256`, and for `c ≥ 256` the attention of decoder row
  `(b, t)` over batch `b`'s 2048 encoder rows, at lane `c - 256`.
-/
import Idealize.ShloMosaic.PureOps.Ideal
import Idealize.ShloMosaic.Lib.ValueIdx

noncomputable section

namespace Cert.Attn

open Idealize.ShloMosaic Idealize.ShloMosaic.ValueIdx

/-- The f32 word of minus infinity, at the ideal values: both programs fold their maxima from it. -/
abbrev negInf : EReal := Ideal.ofBits .f32 0xFF800000#32

/-- The query against key `e`. -/
def score (q : Fin 256 → EReal) (K : Fin 2048 → Fin 256 → EReal) (e : Fin 2048) : EReal :=
  ∑ d : Fin 256, q d * K e d

/-- The largest score, folded from minus infinity. -/
def top (q : Fin 256 → EReal) (K : Fin 2048 → Fin 256 → EReal) : EReal :=
  max negInf ((Finset.univ : Finset (Fin 2048)).fold max negInf fun e => score q K e)

/-- Key `e`'s unnormalized weight. -/
def weight (q : Fin 256 → EReal) (K : Fin 2048 → Fin 256 → EReal) (e : Fin 2048) : EReal :=
  Ideal.exp (score q K e - top q K)

/-- The weights' sum. -/
def total (q : Fin 256 → EReal) (K : Fin 2048 → Fin 256 → EReal) : EReal :=
  ∑ e : Fin 2048, weight q K e

/-- The attended context at lane `d`: the keys' lane `d` weighted by the softmax of the scores. -/
def attend (q : Fin 256 → EReal) (K : Fin 2048 → Fin 256 → EReal) (d : Fin 256) : EReal :=
  ∑ e : Fin 2048, Ideal.div (weight q K e) (total q K) * K e d

/-- The result at `(b, t, c)`: the decoder's entry on the first 256 lanes, the attended context on the last 256. -/
def outAt (enc dec : (⟨3, ![8, 2048, 256]⟩ : Shape).Idx → EReal) (b : Fin 8) (t : Fin 2048) (c : Fin 512) : EReal :=
  if h : c.val < 256 then dec (ix3 b t ⟨c.val, h⟩)
  else attend (fun d => dec (ix3 b t d)) (fun e d => enc (ix3 b e d)) ⟨c.val - 256, by have := c.isLt; omega⟩

/-- The whole [8, 2048, 512] result as one function of the two argument arrays. -/
def out (enc dec : (⟨3, ![8, 2048, 256]⟩ : Shape).Idx → EReal) : (⟨3, ![8, 2048, 512]⟩ : Shape).Idx → EReal :=
  fun i => outAt enc dec (i 0) (i 1) (i 2)

theorem out_ix3 (enc dec : (⟨3, ![8, 2048, 256]⟩ : Shape).Idx → EReal) (b : Fin 8) (t : Fin 2048) (c : Fin 512) :
    out enc dec (ix3 b t c) = outAt enc dec b t c := rfl

/-- On the first 256 lanes the result is the decoder's entry. -/
theorem outAt_low (enc dec : (⟨3, ![8, 2048, 256]⟩ : Shape).Idx → EReal) (b : Fin 8) (t : Fin 2048) (c : Fin 512)
    (h : c.val < 256) : outAt enc dec b t c = dec (ix3 b t ⟨c.val, h⟩) := by
  unfold outAt; rw [dif_pos h]

/-- On the last 256 lanes it is the attended context. -/
theorem outAt_high (enc dec : (⟨3, ![8, 2048, 256]⟩ : Shape).Idx → EReal) (b : Fin 8) (t : Fin 2048) (c : Fin 512)
    (h : ¬ c.val < 256) (d : Fin 256) (hd : d.val = c.val - 256) :
    outAt enc dec b t c = attend (fun d => dec (ix3 b t d)) (fun e d => enc (ix3 b e d)) d := by
  unfold outAt; rw [dif_neg h]
  exact congrArg _ (Fin.ext hd.symm)

end Cert.Attn

end
-- ==== Proof.KernelOperands.lean ====
/-
  The kernel body's two loaded blocks as matrices, and its first store.

  The body loads 512 decoder rows as a [1, 512, 256] block and the batch's 2048 encoder rows as a [1, 2048, 256] block and
  casts the unit axis away: row `r`, lane `d` of each matrix is entry `(0, r, d)` of its block. The first store
  writes the decoder rows back with the unit axis restored: the block itself.
-/
import proofs.«156029_j29489245454493_1_alg».proof.Proof.Gen.KernelIdeal.Skeleton
import proofs.«156029_j29489245454493_1_alg».proof.Proof.AttnSpec
import Idealize.ShloMosaic.Lib.ValueLayout

noncomputable section

namespace Cert.KernelIdeal.Row

open Cert.KernelIdeal Cert.KernelIdeal.Gen Idealize.ShloMosaic Idealize.ShloMosaic.ValueIdx Cert.Attn

/-! ## The stored decoder rows -/

/-- The first store's value is the decoder block itself: cast to a matrix and back. -/
theorem stored_rows {F : FTy → Type} [FloatOps F] (x0 : Vec F S1x512x256 .f32) : k0_pay2 x0 = x0 := by
  unfold k0_pay2 k0_pay1
  exact shapeCast_shapeCast x0 _ _

/-! ## The two operands as matrices -/

/-- The decoder block as a [512, 256] matrix: row `r`, lane `d`. -/
theorem queries_apply (x0 : Vec Ideal S1x512x256 .f32) (r : Fin 512) (d : Fin 256) :
    k0_pay1 x0 (ix2 r d) = x0 (ix3 (0 : Fin 1) r d) := by
  unfold k0_pay1
  exact shapeCast_1ab_ab_apply x0 _ r d

/-- The encoder rows as a [2048, 256] matrix. -/
def keys (x1 : Vec Ideal S1x2048x256 .f32) : FVec Ideal S2048x256 .f32 :=
  shapeCast S2048x256 x1 shapeCasts_S1x2048x256_S2048x256

theorem keys_apply (x1 : Vec Ideal S1x2048x256 .f32) (e : Fin 2048) (d : Fin 256) :
    keys x1 (ix2 e d) = x1 (ix3 (0 : Fin 1) e d) := by
  unfold keys
  exact shapeCast_1ab_ab_apply x1 _ e d

end Cert.KernelIdeal.Row

end
-- ==== Proof.KernelScores.lean ====
/-
  The kernel's scores: the decoder rows times the encoder rows transposed, accumulated from zero.

  At `(r, e)` the matrix product is the sum over the one contracted axis, the 256 lanes, of decoder entry `(r, d)` times
  the transposed encoder entry `(d, e)`, which is encoder entry `(e, d)`: `Attn.score` of decoder row `r` against encoder
  row `e`. The changes of float format on the way in are the identity at the ideal values.
-/
import proofs.«156029_j29489245454493_1_alg».proof.Proof.Gen.KernelIdeal.Skeleton
import proofs.«156029_j29489245454493_1_alg».proof.Proof.KernelOperands
import Idealize.ShloMosaic.PureOps.Ideal.Laws

noncomputable section

namespace Cert.KernelIdeal.Row

open Cert.KernelIdeal Cert.KernelIdeal.Gen Idealize.ShloMosaic Idealize.ShloMosaic.ValueIdx Cert.Attn

/-! ## The scores: decoder rows times encoder rows transposed -/

theorem scoreDot_lhs0 (i : S512x2048.Idx) (q : dot_S512x256_S256x2048_S512x2048_1_0_0_1_n_n.contr.Idx) :
    (dot_S512x256_S256x2048_S512x2048_1_0_0_1_n_n.lhsIdx i q 0).val = (i 0).val := by
  unfold DotDims.lhsIdx
  rw [dif_neg (show ¬(0 : Fin S512x256.rank) ∈ dot_S512x256_S256x2048_S512x2048_1_0_0_1_n_n.lhsBatch by decide),
    dif_pos (show (0 : Fin S512x256.rank) ∈ dot_S512x256_S256x2048_S512x2048_1_0_0_1_n_n.lhsNonContracting by decide)]
  rfl
theorem scoreDot_lhs1 (i : S512x2048.Idx) (q : dot_S512x256_S256x2048_S512x2048_1_0_0_1_n_n.contr.Idx) :
    (dot_S512x256_S256x2048_S512x2048_1_0_0_1_n_n.lhsIdx i q 1).val = (q ⟨0, by decide⟩).val :=
  dot_S512x256_S256x2048_S512x2048_1_0_0_1_n_n.lhsIdx_val_of_single rfl i q
theorem scoreDot_rhs0 (i : S512x2048.Idx) (q : dot_S512x256_S256x2048_S512x2048_1_0_0_1_n_n.contr.Idx) :
    (dot_S512x256_S256x2048_S512x2048_1_0_0_1_n_n.rhsIdx i q 0).val = (q ⟨0, by decide⟩).val :=
  dot_S512x256_S256x2048_S512x2048_1_0_0_1_n_n.rhsIdx_val_of_single rfl i q
theorem scoreDot_rhs1 (i : S512x2048.Idx) (q : dot_S512x256_S256x2048_S512x2048_1_0_0_1_n_n.contr.Idx) :
    (dot_S512x256_S256x2048_S512x2048_1_0_0_1_n_n.rhsIdx i q 1).val = (i 1).val := by
  unfold DotDims.rhsIdx
  rw [dif_neg (show ¬(1 : Fin S256x2048.rank) ∈ dot_S512x256_S256x2048_S512x2048_1_0_0_1_n_n.rhsBatch by decide),
    dif_pos (show (1 : Fin S256x2048.rank) ∈ dot_S512x256_S256x2048_S512x2048_1_0_0_1_n_n.rhsNonContracting by decide)]
  rfl

/-- The [512, 2048] scores of the block's decoder rows against the batch's encoder rows. -/
def scores (x0 : Vec Ideal S1x512x256 .f32) (x1 : Vec Ideal S1x2048x256 .f32) : FVec Ideal S512x2048 .f32 :=
  matmul dot_S512x256_S256x2048_S512x2048_1_0_0_1_n_n none
    (truncf .bf16 (k0_pay1 x0) bitsLt_bf16_f32)
    (transpose S256x2048 [1, 0] (truncf .bf16 (keys x1) bitsLt_bf16_f32) transposes_S2048x256_p1_0_S256x2048)
    (constant (F := Ideal) S512x2048 .f32 0x00000000#32)

/-- Score `(r, e)` is decoder row `r` against encoder row `e`. -/
theorem scores_apply (x0 : Vec Ideal S1x512x256 .f32) (x1 : Vec Ideal S1x2048x256 .f32) (r : Fin 512) (e : Fin 2048) :
    scores x0 x1 (ix2 r e) = score (fun d => x0 (ix3 (0 : Fin 1) r d)) (fun e d => x1 (ix3 (0 : Fin 1) e d)) e := by
  unfold scores score
  refine (Ideal.matmul_constant_zero_apply dot_S512x256_S256x2048_S512x2048_1_0_0_1_n_n none _ _ (ix2 r e)).trans ?_
  rw [← Equiv.sum_comp (contrEquiv1 dot_S512x256_S256x2048_S512x2048_1_0_0_1_n_n 256 rfl rfl).symm]
  refine Finset.sum_congr rfl fun k _ => ?_
  have hk := contrEquiv1_symm_val dot_S512x256_S256x2048_S512x2048_1_0_0_1_n_n 256 rfl rfl k
  have el : dot_S512x256_S256x2048_S512x2048_1_0_0_1_n_n.lhsIdx (ix2 r e)
      ((contrEquiv1 dot_S512x256_S256x2048_S512x2048_1_0_0_1_n_n 256 rfl rfl).symm k) = ix2 r k :=
    funext fun a => Fin.ext (by
      match a with
      | ⟨0, _⟩ => exact scoreDot_lhs0 _ _
      | ⟨1, _⟩ => exact (scoreDot_lhs1 _ _).trans hk)
  have er : dot_S512x256_S256x2048_S512x2048_1_0_0_1_n_n.rhsIdx (ix2 r e)
      ((contrEquiv1 dot_S512x256_S256x2048_S512x2048_1_0_0_1_n_n 256 rfl rfl).symm k) = ix2 k e :=
    funext fun a => Fin.ext (by
      match a with
      | ⟨0, _⟩ => exact (scoreDot_rhs0 _ _).trans hk
      | ⟨1, _⟩ => exact scoreDot_rhs1 _ _)
  rw [el, er, truncf_apply, queries_apply, transpose_ix2_apply, truncf_apply, keys_apply]

end Cert.KernelIdeal.Row

end
-- ==== Proof.LibRowOps.lean ====
/-
  Rows of a matrix reduced along their lanes, and a column of per-row values spread back over the lanes, each read at an
  index written by its coordinates.

  A softmax over the lanes of an `[a, b]` matrix takes, row by row, a maximum and a sum over the `b` lanes, and
  gives each back to every lane of its row (a vector `[a]` cast to a column `[a, 1]`, then broadcast to `[a, b]`).
  At the ideal values the lane maximum at row `p` is the fold of `max` over `c : Fin b` of the entries `(p, c)`, the
  lane sum the sum over `c` of them, and the spread column reads, at `(p, c)`, the vector at `p`.
  The host's reduction over the MIDDLE axis of an `[n, a, b]` array (a softmax over axis 1) is read the same way:
  at `(k, c)` the fold over `p : Fin a` of the entries `(k, p, c)`.
-/
import Idealize.ShloMosaic.PureOps.Ideal.Laws
import Idealize.ShloMosaic.Lib.Pipeline.Value
import Idealize.ShloMosaic.Lib.ValueIdx

namespace Cert.RowOps

open Idealize.ShloMosaic Idealize.ShloMosaic.ValueIdx

/-- A vector `[a]` cast to the column `[a, 1]` and broadcast over `b` lanes reads, at `(p, c)`, the vector at `p`:
    the column's one lane is lane `0`, and row `p` of the column is entry `p` of the vector. -/
theorem spreadColumn_apply {α : Type} {a b : ℕ} (x : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (p : Fin a) (c : Fin b) :
    broadcastTo ⟨2, ![a, b]⟩ (shapeCast ⟨2, ![a, 1]⟩ x h1) h2 (ix2 p c) = x (ix1 p) := by
  refine (broadcastTo_apply _ h2 (ix2 p c) (ix2 p (0 : Fin 1)) fun ax => ?_).trans ?_
  · match ax with
    | ⟨0, _⟩ =>
      show p.val = if a = 1 then 0 else p.val
      split
      · have := p.isLt; omega
      · rfl
    | ⟨1, _⟩ =>
      show 0 = if (1 : ℕ) = 1 then 0 else c.val
      rw [if_pos rfl]
  · exact shapeCast_apply x h1 _ _ (by
      rw [Shape.rowMajor_val_one, Shape.rowMajor_val_two]
      show p.val = p.val * 1 + 0
      omega)

variable {φ : FTy}

/-- The lane maximum of row `p`: the fold of `max`, from the accumulator's value, over the row's `b` entries. -/
theorem laneMax_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun c => src (ix2 p c)) := by
  refine (Ideal.multiReduction_maximumf_single src acc h hφ hacc (ix1 p)).trans ?_
  show (Finset.univ : Finset (Fin b)).fold max (Ideal.ofBits φ acc) (fun c => src (h.lift (ix1 p) c)) = _
  refine congrArg (fun f => (Finset.univ : Finset (Fin b)).fold max (Ideal.ofBits φ acc) f) (funext fun c => ?_)
  exact congrArg src (funext fun ax => Fin.ext (by match ax with | ⟨0, _⟩ => rfl | ⟨1, _⟩ => rfl))

/-- The lane sum of row `p`: the sum of the row's `b` entries. -/
theorem laneSum_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ c : Fin b, src (ix2 p c) := by
  refine (Ideal.multiReduction_add_single src acc h hφ hacc (ix1 p)).trans ?_
  show ∑ c : Fin b, src (h.lift (ix1 p) c) = _
  refine Finset.sum_congr rfl fun c _ => ?_
  exact congrArg src (funext fun ax => Fin.ext (by match ax with | ⟨0, _⟩ => rfl | ⟨1, _⟩ => rfl))

/-- The host's maximum over the MIDDLE axis of an `[n, a, b]` array, at `(k, c)`: the fold of `max`, from the initial
    value, over `p : Fin a` of the entries `(k, p, c)`. -/
theorem hostMidMax_apply {n a b : ℕ} {u : Shape} (x : (⟨3, ![n, a, b]⟩ : Shape).Idx → Ideal φ) (init : u.Idx → Ideal φ)
    (h' : (⟨3, ![n, a, b]⟩ : Shape).ReducesTo [1] ⟨2, ![n, b]⟩) (h : (⟨3, ![n, a, b]⟩ : Shape).Reduces [1] ⟨2, ![n, b]⟩)
    (hu : 0 < u.numel) (k : Fin n) (c : Fin b) :
    Host.reduce (FloatOps.maximumf (F := Ideal) (φ := φ)) x init h' hu (ix2 k c)
      = (Finset.univ : Finset (Fin a)).fold max (init (Shape.Idx.first hu)) (fun p => x (ix3 k p c)) := by
  refine (Host.reduce_eq_fold_single (FloatOps.maximumf (F := Ideal) (φ := φ)) x init h' h hu (ix2 k c)).trans ?_
  show (Finset.univ : Finset (Fin a)).fold max (init (Shape.Idx.first hu)) (fun p => x (h.lift (ix2 k c) p)) = _
  refine congrArg (fun f => (Finset.univ : Finset (Fin a)).fold max (init (Shape.Idx.first hu)) f) (funext fun p => ?_)
  exact congrArg x (funext fun ax => Fin.ext (by match ax with | ⟨0, _⟩ => rfl | ⟨1, _⟩ => rfl | ⟨2, _⟩ => rfl))

end Cert.RowOps
-- ==== Proof.KernelSoftmax.lean ====
/-
  The kernel's softmax over each row's 2048 scores, one operation at a time, read at an index.

  For a [512, 2048] matrix `s`: each row's largest entry (the lane maximum folded from minus infinity, compared once
  more with minus infinity), given back to every lane of the row; the exponential of each entry less its row's
  largest; each row's sum of those; each weight over its row's sum.
-/
import proofs.«156029_j29489245454493_1_alg».proof.Proof.Gen.KernelIdeal.Skeleton
import proofs.«156029_j29489245454493_1_alg».proof.Proof.LibRowOps
import proofs.«156029_j29489245454493_1_alg».proof.Proof.AttnSpec

noncomputable section

namespace Cert.KernelIdeal.Row

open Cert.KernelIdeal Cert.KernelIdeal.Gen Idealize.ShloMosaic Idealize.ShloMosaic.ValueIdx Cert.Attn

/-! ## The softmax over each row's 2048 scores -/

/-- Each row's largest score: the lane maximum folded from minus infinity, compared once more with minus infinity. -/
def rowTop (s : FVec Ideal S512x2048 .f32) : FVec Ideal S512 .f32 :=
  maximumf (broadcast S512 (Scalar.ofBits (F := Ideal) .f32 0xFF800000#32))
    (multiReduction .maximumf [1] S512 s 0xFF800000#32 reduces_S512x2048_S512 (.inl rfl) rfl)

theorem rowTop_apply (s : FVec Ideal S512x2048 .f32) (r : Fin 512) :
    rowTop s (ix1 r) = max negInf ((Finset.univ : Finset (Fin 2048)).fold max negInf fun e => s (ix2 r e)) := by
  unfold rowTop
  rw [maximumf_apply, broadcast_apply]
  have hc : (Scalar.ofBits (F := Ideal) .f32 0xFF800000#32 : EReal) = negInf := rfl
  rw [hc]
  refine congrArg (max negInf) ?_
  exact Cert.RowOps.laneMax_apply s _ _ _ _ r

/-- A per-row value given to every lane of its row. -/
def spread (v : FVec Ideal S512 .f32) : FVec Ideal S512x2048 .f32 :=
  broadcastTo S512x2048 (shapeCast S512x1 v shapeCasts_S512_S512x1) broadcasts_S512x1_S512x2048

theorem spread_apply (v : FVec Ideal S512 .f32) (r : Fin 512) (e : Fin 2048) : spread v (ix2 r e) = v (ix1 r) := by
  unfold spread
  exact Cert.RowOps.spreadColumn_apply v _ _ r e

/-- The exponential of a matrix, read at an index. -/
theorem exp_apply {s : Shape} {φ : FTy} (a : FVec Ideal s φ) (i : s.Idx) : exp a i = Ideal.exp (a i) := rfl

/-- The unnormalized weights: the exponential of each score less its row's largest. -/
def weights (s : FVec Ideal S512x2048 .f32) : FVec Ideal S512x2048 .f32 := exp (subf s (spread (rowTop s)))

theorem weights_apply (s : FVec Ideal S512x2048 .f32) (r : Fin 512) (e : Fin 2048) :
    weights s (ix2 r e) = Ideal.exp (s (ix2 r e) - rowTop s (ix1 r)) := by
  unfold weights
  rw [exp_apply, subf_apply, spread_apply]

/-- Each row's sum of weights. -/
def rowTotal (p : FVec Ideal S512x2048 .f32) : FVec Ideal S512 .f32 :=
  multiReduction .add [1] S512 p 0x00000000#32 reduces_S512x2048_S512 (.inl rfl) rfl

theorem rowTotal_apply (p : FVec Ideal S512x2048 .f32) (r : Fin 512) : rowTotal p (ix1 r) = ∑ e : Fin 2048, p (ix2 r e) := by
  unfold rowTotal
  exact Cert.RowOps.laneSum_apply p _ _ _ _ r

/-- The shares: each weight over its row's sum. -/
def shares (p : FVec Ideal S512x2048 .f32) : FVec Ideal S512x2048 .f32 := divf p (spread (rowTotal p))

theorem shares_apply (p : FVec Ideal S512x2048 .f32) (r : Fin 512) (e : Fin 2048) :
    shares p (ix2 r e) = Ideal.div (p (ix2 r e)) (rowTotal p (ix1 r)) := by
  unfold shares
  rw [divf_apply, spread_apply]

end Cert.KernelIdeal.Row

end
-- ==== Proof.KernelContext.lean ====
/-
  The kernel's context: the shares times the encoder rows, accumulated from zero.

  At `(r, d)` the matrix product is the sum over the one contracted axis, the 2048 encoder rows, of share `(r, e)` times
  encoder entry `(e, d)`.
-/
import proofs.«156029_j29489245454493_1_alg».proof.Proof.Gen.KernelIdeal.Skeleton
import proofs.«156029_j29489245454493_1_alg».proof.Proof.KernelOperands
import Idealize.ShloMosaic.PureOps.Ideal.Laws

noncomputable section

namespace Cert.KernelIdeal.Row

open Cert.KernelIdeal Cert.KernelIdeal.Gen Idealize.ShloMosaic Idealize.ShloMosaic.ValueIdx Cert.Attn

/-! ## The context: shares times encoder rows -/

theorem contextDot_lhs0 (i : S512x256.Idx) (q : dot_S512x2048_S2048x256_S512x256_1_0_0_1_n_n.contr.Idx) :
    (dot_S512x2048_S2048x256_S512x256_1_0_0_1_n_n.lhsIdx i q 0).val = (i 0).val := by
  unfold DotDims.lhsIdx
  rw [dif_neg (show ¬(0 : Fin S512x2048.rank) ∈ dot_S512x2048_S2048x256_S512x256_1_0_0_1_n_n.lhsBatch by decide),
    dif_pos (show (0 : Fin S512x2048.rank) ∈ dot_S512x2048_S2048x256_S512x256_1_0_0_1_n_n.lhsNonContracting by decide)]
  rfl
theorem contextDot_lhs1 (i : S512x256.Idx) (q : dot_S512x2048_S2048x256_S512x256_1_0_0_1_n_n.contr.Idx) :
    (dot_S512x2048_S2048x256_S512x256_1_0_0_1_n_n.lhsIdx i q 1).val = (q ⟨0, by decide⟩).val :=
  dot_S512x2048_S2048x256_S512x256_1_0_0_1_n_n.lhsIdx_val_of_single rfl i q
theorem contextDot_rhs0 (i : S512x256.Idx) (q : dot_S512x2048_S2048x256_S512x256_1_0_0_1_n_n.contr.Idx) :
    (dot_S512x2048_S2048x256_S512x256_1_0_0_1_n_n.rhsIdx i q 0).val = (q ⟨0, by decide⟩).val :=
  dot_S512x2048_S2048x256_S512x256_1_0_0_1_n_n.rhsIdx_val_of_single rfl i q
theorem contextDot_rhs1 (i : S512x256.Idx) (q : dot_S512x2048_S2048x256_S512x256_1_0_0_1_n_n.contr.Idx) :
    (dot_S512x2048_S2048x256_S512x256_1_0_0_1_n_n.rhsIdx i q 1).val = (i 1).val := by
  unfold DotDims.rhsIdx
  rw [dif_neg (show ¬(1 : Fin S2048x256.rank) ∈ dot_S512x2048_S2048x256_S512x256_1_0_0_1_n_n.rhsBatch by decide),
    dif_pos (show (1 : Fin S2048x256.rank) ∈ dot_S512x2048_S2048x256_S512x256_1_0_0_1_n_n.rhsNonContracting by decide)]
  rfl

/-- The [512, 256] context of shares `a` over the encoder rows. -/
def context (a : FVec Ideal S512x2048 .f32) (x1 : Vec Ideal S1x2048x256 .f32) : FVec Ideal S512x256 .f32 :=
  matmul dot_S512x2048_S2048x256_S512x256_1_0_0_1_n_n none
    (truncf .bf16 a bitsLt_bf16_f32) (truncf .bf16 (keys x1) bitsLt_bf16_f32)
    (constant (F := Ideal) S512x256 .f32 0x00000000#32)

/-- Context `(r, d)` is the shares of row `r` against lane `d` of the encoder rows. -/
theorem context_apply (a : FVec Ideal S512x2048 .f32) (x1 : Vec Ideal S1x2048x256 .f32) (r : Fin 512) (d : Fin 256) :
    context a x1 (ix2 r d) = ∑ e : Fin 2048, a (ix2 r e) * x1 (ix3 (0 : Fin 1) e d) := by
  unfold context
  refine (Ideal.matmul_constant_zero_apply dot_S512x2048_S2048x256_S512x256_1_0_0_1_n_n none _ _ (ix2 r d)).trans ?_
  rw [← Equiv.sum_comp (contrEquiv1 dot_S512x2048_S2048x256_S512x256_1_0_0_1_n_n 2048 rfl rfl).symm]
  refine Finset.sum_congr rfl fun k _ => ?_
  have hk := contrEquiv1_symm_val dot_S512x2048_S2048x256_S512x256_1_0_0_1_n_n 2048 rfl rfl k
  have el : dot_S512x2048_S2048x256_S512x256_1_0_0_1_n_n.lhsIdx (ix2 r d)
      ((contrEquiv1 dot_S512x2048_S2048x256_S512x256_1_0_0_1_n_n 2048 rfl rfl).symm k) = ix2 r k :=
    funext fun a => Fin.ext (by
      match a with
      | ⟨0, _⟩ => exact contextDot_lhs0 _ _
      | ⟨1, _⟩ => exact (contextDot_lhs1 _ _).trans hk)
  have er : dot_S512x2048_S2048x256_S512x256_1_0_0_1_n_n.rhsIdx (ix2 r d)
      ((contrEquiv1 dot_S512x2048_S2048x256_S512x256_1_0_0_1_n_n 2048 rfl rfl).symm k) = ix2 k d :=
    funext fun a => Fin.ext (by
      match a with
      | ⟨0, _⟩ => exact (contextDot_rhs0 _ _).trans hk
      | ⟨1, _⟩ => exact contextDot_rhs1 _ _)
  rw [el, er, truncf_apply, truncf_apply, keys_apply]

end Cert.KernelIdeal.Row

end
-- ==== Proof.KernelRow.lean ====
/-
  What the kernel's body computes from one block of decoder rows and one batch of encoder rows, read at an index.

  The body holds 512 decoder rows `x0` (a [1, 512, 256] block) and the batch's 2048 encoder rows `x1`
  ([1, 2048, 256]). It stores the decoder rows back unchanged (the two shape casts cancel), and beside them
  the attended context: the scores are a matrix product of the decoder rows with the encoder rows transposed,
  accumulated from zero — at `(r, e)` the sum over the 256 lanes of `x0 (r, d) · x1 (e, d)` —; each row's largest score,
  folded from minus infinity and once more compared with it, is taken from the row's scores before the exponential;
  the weights are divided by their row's sum; and a second matrix product of the shares with the encoder rows,
  again from zero, is at `(r, d)` the sum over the 2048 encoder rows of `share (r, e) · x1 (e, d)`. The changes of
  float format on the way into each product are the identity at the ideal values. So row `r` of the stored context
  is `Attn.attend` of decoder row `r` over the encoder rows (`context_row`).
-/
import proofs.«156029_j29489245454493_1_alg».proof.Proof.Gen.KernelIdeal.Skeleton
import proofs.«156029_j29489245454493_1_alg».proof.Proof.KernelScores
import proofs.«156029_j29489245454493_1_alg».proof.Proof.KernelSoftmax
import proofs.«156029_j29489245454493_1_alg».proof.Proof.KernelContext

noncomputable section

namespace Cert.KernelIdeal.Row

open Cert.KernelIdeal Cert.KernelIdeal.Gen Idealize.ShloMosaic Idealize.ShloMosaic.ValueIdx Cert.Attn

/-! ## The second store's value -/

/-- The second store's value is the context of the shares of the weights of the scores, with a unit axis in front. -/
theorem stored_context_eq (x0 : Vec Ideal S1x512x256 .f32) (x1 : Vec Ideal S1x2048x256 .f32) :
    k0_pay3 x0 x1
      = shapeCast S1x512x256 (context (shares (weights (scores x0 x1))) x1) shapeCasts_S512x256_S1x512x256 := rfl

/-- Row `r` of the stored context is the attention of decoder row `r` over the encoder rows. -/
theorem context_row (x0 : Vec Ideal S1x512x256 .f32) (x1 : Vec Ideal S1x2048x256 .f32) (u : Fin 1) (r : Fin 512) (d : Fin 256) :
    k0_pay3 x0 x1 (ix3 u r d)
      = attend (fun d => x0 (ix3 (0 : Fin 1) r d)) (fun e d => x1 (ix3 (0 : Fin 1) e d)) d := by
  rw [stored_context_eq]
  refine (shapeCast_ab_1ab_apply _ _ u r d).trans ?_
  rw [context_apply]
  unfold attend total weight top
  refine Finset.sum_congr rfl fun e _ => ?_
  rw [shares_apply, rowTotal_apply]
  simp only [weights_apply, rowTop_apply, scores_apply]

end Cert.KernelIdeal.Row

end
-- ==== Proof.KernelArray.lean ====
/-
  From the body's block to the whole result array.

  At grid point `t` = (batch `b`, row tile `i`) the body is handed rows `512 i … 512 i + 511` of batch `b` of the decoder
  (window 0) and all 2048 rows of batch `b` of the encoder (window 1), and leaves a [1, 512, 512] block: on lanes
  `0 … 255` the decoder rows (the first store), on lanes `256 … 511` their attended context (the second store) — one
  function `block` of the two loaded blocks, whichever store covers the index. Written back through window 2's block at
  `t`, rows `512 i …` of batch `b` of the [8, 2048, 512] result, that is `Attn.out` of the two argument arrays read
  through the same block: a coordinate of a block's entry in its array is always block index × block size + the
  coordinate inside the block, and the three windows' block indices agree on the batch and, for the decoder, on the row
  tile. The 32 blocks cover the result array (the point for batch `b` and row `r` is `(b, r / 512)`), so the array
  ends holding `Attn.out` of the arguments.
-/
import proofs.«156029_j29489245454493_1_alg».proof.Proof.Gen.KernelIdeal.Value
import proofs.«156029_j29489245454493_1_alg».proof.Proof.KernelRow
import proofs.«156029_j29489245454493_1_alg».proof.Proof.AttnSpec

noncomputable section

namespace Cert.KernelIdeal.Whole

open Cert.KernelIdeal Cert.KernelIdeal.Gen Cert.KernelIdeal.Value
open Idealize.ShloMosaic Idealize.ShloMosaic.TcCoe Idealize.SL.Sem Idealize.ShloMosaic.ValueIdx Cert.Attn
open Idealize.ShloMosaic.Pipeline (Dat)

/-! ## The block the body leaves, as one function of the two loaded blocks -/

theorem zero_offsets : (![0, 0, 0] : Fin 3 → Nat) = fun _ => 0 := funext fun a => by fin_cases a <;> rfl

/-- Row `r`, lane `c` of the block: the decoder's entry on the first 256 lanes, the attended context on the last 256. -/
def blockAt (x0 : Vec Ideal S1x512x256 .f32) (x1 : Vec Ideal S1x2048x256 .f32) (r : Fin 512) (c : Fin 512) : EReal :=
  if h : c.val < 256 then x0 (ix3 (0 : Fin 1) r ⟨c.val, h⟩)
  else attend (fun d => x0 (ix3 (0 : Fin 1) r d)) (fun e d => x1 (ix3 (0 : Fin 1) e d))
    ⟨c.val - 256, by have := c.isLt; omega⟩

theorem blockAt_low (x0 : Vec Ideal S1x512x256 .f32) (x1 : Vec Ideal S1x2048x256 .f32) (r r' : Fin 512) (c : Fin 512)
    (d : Fin 256) (hr : r'.val = r.val) (hc : c.val = d.val) : blockAt x0 x1 r' c = x0 (ix3 (0 : Fin 1) r d) := by
  obtain rfl : r' = r := Fin.ext hr
  have h : c.val < 256 := by have := d.isLt; omega
  unfold blockAt
  rw [dif_pos h]
  exact congrArg (fun z => x0 (ix3 (0 : Fin 1) r' z)) (Fin.ext hc)

theorem blockAt_high (x0 : Vec Ideal S1x512x256 .f32) (x1 : Vec Ideal S1x2048x256 .f32) (r r' : Fin 512) (c : Fin 512)
    (d : Fin 256) (hr : r'.val = r.val) (hc : c.val = 256 + d.val) :
    blockAt x0 x1 r' c = attend (fun d => x0 (ix3 (0 : Fin 1) r d)) (fun e d => x1 (ix3 (0 : Fin 1) e d)) d := by
  obtain rfl : r' = r := Fin.ext hr
  have h : ¬ c.val < 256 := by omega
  unfold blockAt
  rw [dif_neg h]
  exact congrArg _ (Fin.ext (by show c.val - 256 = d.val; omega))

/-- The [1, 512, 512] block as a function of its index. -/
def block (x0 : Vec Ideal S1x512x256 .f32) (x1 : Vec Ideal S1x2048x256 .f32) : Vec Ideal S1x512x512 .f32 :=
  fun y => blockAt x0 x1 (y 1) (y 2)

/-- What the body's two stores leave in the output's staging buffer is `block` of the two loaded blocks: each store's
    value is `block` read through the store's rectangle, and the two rectangles cover the buffer. -/
theorem out_block (x0 : Vec Ideal S1x512x256 .f32) (x1 : Vec Ideal S1x2048x256 .f32) : out0_2 x0 x1 = block x0 x1 := by
  funext y
  unfold out0_2
  rw [View.ld_unit_zero (S := S1x512x256) zero_offsets, View.ld_unit_zero (S := S1x2048x256) zero_offsets]
  refine View.canon_apply_of_pieces (block x0 x1) _ ?_ y (cover0_2 _ _ y)
  intro p hp x
  rcases List.mem_cons.mp hp with rfl | hp
  · obtain ⟨u, r, d, rfl⟩ : ∃ (u : Fin 1) (r : Fin 512) (d : Fin 256), x = ix3 u r d := ⟨x 0, x 1, x 2, eq_ix3 x⟩
    show k0_pay3 x0 x1 (ix3 u r d) = blockAt x0 x1 (r0_3.emb (ix3 u r d) 1) (r0_3.emb (ix3 u r d) 2)
    rw [Row.context_row]
    exact (blockAt_high x0 x1 r _ _ d (by show 0 + 1 * r.val = r.val; omega)
      (by show 256 + 1 * d.val = 256 + d.val; omega)).symm
  · obtain rfl := List.mem_singleton.mp hp
    obtain ⟨u, r, d, rfl⟩ : ∃ (u : Fin 1) (r : Fin 512) (d : Fin 256), x = ix3 u r d := ⟨x 0, x 1, x 2, eq_ix3 x⟩
    show k0_pay2 x0 (ix3 u r d) = blockAt x0 x1 (r0_2.emb (ix3 u r d) 1) (r0_2.emb (ix3 u r d) 2)
    rw [Row.stored_rows]
    obtain rfl : u = 0 := Fin.ext (by have := u.isLt; omega)
    exact (blockAt_low x0 x1 r _ _ d (by show 0 + 1 * r.val = r.val; omega)
      (by show 0 + 1 * d.val = d.val; omega)).symm

/-! ## The windows' blocks in their arrays -/

variable (m : (ℓ : Loc nD τ sig) → Buf (Elt Ideal) ℓ) (ρ : Dev nD → PrngReg)

/-- The printed index maps, decided over the 32 grid points: the decoder's block moves with the output's on the batch and
    the row tile, the encoder's on the batch alone, every other block index is zero, and the output's stay in range. -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = 0
    ∧ win0_1.index t (2 : Fin 3) = 0
    ∧ win0_2.index t (0 : Fin 3) < 8 ∧ win0_2.index t (1 : Fin 3) < 4 ∧ win0_2.index t (2 : Fin 3) = 0 :=
  (by decide +kernel : ∀ t : Fin grid0.N, _)

/-- Every (batch, row tile) is some point's. -/
theorem idx_onto : ∀ (q0 : Fin 8) (q1 : Fin 4), ∃ t : Fin cfg0.N, win0_2.index t = ![q0.val, q1.val, 0] :=
  (by decide +kernel : ∀ (q0 : Fin 8) (q1 : Fin 4), ∃ t : Fin grid0.N, win0_2.index t = ![q0.val, q1.val, 0])

/-- The decoder's block at point `t`, entry `(0, r, d)`: the decoder array at the output block's batch and row
    `tile × 512 + r`. -/
theorem decoder_block (c : Dev nD) (t : Fin cfg0.N) (r : Fin 512) (d : Fin 256) (k : S8x2048x256.Idx)
    (h0 : (k 0).val = win0_2.index t (0 : Fin 3)) (h1 : (k 1).val = win0_2.index t (1 : Fin 3) * 512 + r.val)
    (h2 : (k 2).val = d.val) :
    (iblk m c 0 t : Vec Ideal S1x512x256 .f32) (ix3 (0 : Fin 1) r d) = V m c main_arg1 k := by
  obtain ⟨e0, e1, e2, -⟩ := idx_facts t
  show V m c main_arg1 (((cfg0.win 0).blk t).view.emb (ix3 (0 : Fin 1) r d)) = V m c main_arg1 k
  refine congrArg (V m c main_arg1) (funext fun a => Fin.ext ?_)
  match a with
  | ⟨0, _⟩ => show win0_0.index t (0 : Fin 3) * 1 + 1 * 0 = (k 0).val; omega
  | ⟨1, _⟩ => show win0_0.index t (1 : Fin 3) * 512 + 1 * r.val = (k 1).val; omega
  | ⟨2, _⟩ => show win0_0.index t (2 : Fin 3) * 256 + 1 * d.val = (k 2).val; omega

/-- The encoder's block at point `t`, entry `(0, e, d)`: the encoder array at the output block's batch, row `e`. -/
theorem encoder_block (c : Dev nD) (t : Fin cfg0.N) (e : Fin 2048) (d : Fin 256) (k : S8x2048x256.Idx)
    (h0 : (k 0).val = win0_2.index t (0 : Fin 3)) (h1 : (k 1).val = e.val) (h2 : (k 2).val = d.val) :
    (iblk m c 1 t : Vec Ideal S1x2048x256 .f32) (ix3 (0 : Fin 1) e d) = V m c main_arg0 k := by
  obtain ⟨-, -, -, e0, e1, e2, -⟩ := idx_facts t
  show V m c main_arg0 (((cfg0.win 1).blk t).view.emb (ix3 (0 : Fin 1) e d)) = V m c main_arg0 k
  refine congrArg (V m c main_arg0) (funext fun a => Fin.ext ?_)
  match a with
  | ⟨0, _⟩ => show win0_1.index t (0 : Fin 3) * 1 + 1 * 0 = (k 0).val; omega
  | ⟨1, _⟩ => show win0_1.index t (1 : Fin 3) * 2048 + 1 * e.val = (k 1).val; omega
  | ⟨2, _⟩ => show win0_1.index t (2 : Fin 3) * 256 + 1 * d.val = (k 2).val; omega

/-! ## What a point writes back, and the array after the run -/

/-- The result as a function of the arrays the region finds. -/
abbrev result (c : Dev nD) : S8x2048x512.Idx → EReal := out (V m c main_arg0) (V m c main_arg1)

/-- Point `t` writes back block `t` of `Attn.out` of the argument arrays. -/
theorem flushed_eq (c : Dev nD) (t : Fin cfg0.N) :
    (dats m 0 c).flushed 2 t = ((cfg0.win 2).blk t).view.read (Elt Ideal) (result m c) := by
  rw [Value.flushed2, out_block]
  obtain ⟨-, -, -, -, -, -, b0, b1, b2⟩ := idx_facts t
  funext y
  obtain ⟨u, r, cc, rfl⟩ : ∃ (u : Fin 1) (r : Fin 512) (cc : Fin 512), y = ix3 u r cc := ⟨y 0, y 1, y 2, eq_ix3 y⟩
  have hu : u.val = 0 := by have := u.isLt; omega
  -- the array index under the block's entry (u, r, cc)
  obtain ⟨j, hj⟩ : ∃ j : S8x2048x512.Idx, j = ((cfg0.win 2).blk t).view.emb (ix3 u r cc) := ⟨_, rfl⟩
  have j0 : (j 0).val = win0_2.index t (0 : Fin 3) := by
    rw [hj]; show win0_2.index t (0 : Fin 3) * 1 + 1 * u.val = _; omega
  have j1 : (j 1).val = win0_2.index t (1 : Fin 3) * 512 + r.val := by
    rw [hj]; show win0_2.index t (1 : Fin 3) * 512 + 1 * r.val = _; omega
  have j2 : (j 2).val = cc.val := by
    rw [hj]; show win0_2.index t (2 : Fin 3) * 512 + 1 * cc.val = _; omega
  show blockAt (iblk m c 0 t) (iblk m c 1 t) r cc = result m c (((cfg0.win 2).blk t).view.emb (ix3 u r cc))
  rw [← hj]
  obtain ⟨b, tt, c', rfl⟩ : ∃ (b : Fin 8) (tt : Fin 2048) (c' : Fin 512), j = ix3 b tt c' := ⟨j 0, j 1, j 2, eq_ix3 j⟩
  show _ = outAt (V m c main_arg0) (V m c main_arg1) b tt c'
  have hcc : c' = cc := Fin.ext j2
  subst hcc
  by_cases h : c'.val < 256
  · rw [outAt_low _ _ b tt c' h, blockAt_low _ _ r r c' ⟨c'.val, h⟩ rfl rfl]
    exact decoder_block m c t r ⟨c'.val, h⟩ _ j0 j1 rfl
  · have hc : c'.val < 512 := c'.isLt
    rw [outAt_high _ _ b tt c' h ⟨c'.val - 256, by omega⟩ rfl,
      blockAt_high _ _ r r c' ⟨c'.val - 256, by omega⟩ rfl (by show c'.val = 256 + (c'.val - 256); omega)]
    have hq : (fun d => (iblk m c 0 t : Vec Ideal S1x512x256 .f32) (ix3 (0 : Fin 1) r d))
        = fun d => V m c main_arg1 (ix3 b tt d) :=
      funext fun d => decoder_block m c t r d _ j0 j1 rfl
    have hK : (fun e d => (iblk m c 1 t : Vec Ideal S1x2048x256 .f32) (ix3 (0 : Fin 1) e d))
        = fun e d => V m c main_arg0 (ix3 b e d) :=
      funext fun e => funext fun d => encoder_block m c t e d _ j0 rfl rfl
    rw [hq, hK]

/-- An index of the array is in point `t`'s block iff each coordinate is in the block's range on its axis. -/
theorem mem_block (t : Fin cfg0.N) (i : S8x2048x512.Idx) :
    i ∈ ((cfg0.win 2).blk t).view.set ↔ ∀ a : Fin 3, win0_2.index t a * S1x512x512.size a ≤ (i a).val
      ∧ (i a).val < win0_2.index t a * S1x512x512.size a + S1x512x512.size a := by
  show i ∈ ((View.whole main_v0).slice (win0_2.rect t)).set ↔ _
  rw [View.set_slice_whole, Rect.mem_set_unit]
  exact Iff.rfl

/-- Every index of the result array is in some point's block: batch `i 0`, row tile `i 1 / 512`. -/
theorem covered (i : S8x2048x512.Idx) :
    ∃ t : Fin cfg0.N, (cfg0.win 2).flush t = true ∧ i ∈ ((cfg0.win 2).blk t).view.set := by
  have hi0 : (i 0).val < 8 := (i 0).isLt
  have hi1 : (i 1).val < 2048 := (i 1).isLt
  have hi2 : (i 2).val < 512 := (i 2).isLt
  obtain ⟨t, ht⟩ := idx_onto ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_block]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 512 ≤ (i 1).val ∧ (i 1).val < win0_2.index t (1 : Fin 3) * 512 + 512
    omega
  | ⟨2, _⟩ =>
    show win0_2.index t (2 : Fin 3) * 512 ≤ (i 2).val ∧ (i 2).val < win0_2.index t (2 : Fin 3) * 512 + 512
    omega

/-- The result array after the run is `Attn.out` of the arrays the region finds. -/
theorem final (c : Dev nD) : (dats m 0 c).arrAt 2 cfg0.N = result m c :=
  (dats m 0 c).arrAt_eq_of_cover 2 (result m c) (fun t _ => flushed_eq m c t) covered

/-- The kernel's run, read: the result array at `Attn.out` of the argument arrays, the arguments unchanged. -/
theorem run : θ_run defs (onTc (τ := τ) (main (F := Ideal))) ⟨m, fun _ => 0, ρ⟩ fun r => ∀ c : Dev nD,
      r.2.mem ((c : Thread nD τ).loc main_v0)
        = out (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.RefRow.lean ====
/-
  The reference's result, stage by stage, is `Attn.out` of its two arguments.

  The reference scores every encoder row `e` against every decoder row `t` of a batch `b` in an [8, 2048, 2048] array
  laid out `(b, e, t)` — the sum over the 256 lanes of `enc (b, e, d) · dec (b, t, d)`, the product the other way round
  from the kernel's, which on the extended reals is the same number —, takes the maximum and the sum over the MIDDLE axis
  `e`, and contracts the shares with the encoder rows over `e` again. At `(b, t, d)` that is `Attn.attend` of decoder
  row `(b, t)` over batch `b`'s encoder rows; joined after the decoder's 256 lanes it is `Attn.out`.
-/
import proofs.«156029_j29489245454493_1_alg».proof.Proof.Gen.ReferenceIdeal.Read
import proofs.«156029_j29489245454493_1_alg».proof.Proof.LibRowOps
import proofs.«156029_j29489245454493_1_alg».proof.Proof.AttnSpec

noncomputable section

namespace Cert.ReferenceIdeal.Row

open Cert.ReferenceIdeal Cert.ReferenceIdeal.Gen Cert.ReferenceIdeal.Read
open Idealize.ShloMosaic Idealize.ShloMosaic.ValueIdx Cert.Attn

variable (x0 x1 : (⟨S8x2048x256, .f32⟩ : BufTy).Contents (Elt Ideal))

/-- Score `(b, e, t)`: decoder row `(b, t)` against encoder row `(b, e)`. -/
theorem scores_apply (b : Fin 8) (e t : Fin 2048) :
    val_main_v0 (F := Ideal) x0 x1 (ix3 b e t)
      = score (fun d => x1 (ix3 b t d)) (fun e d => x0 (ix3 b e d)) e := by
  rw [val_main_v0_apply]
  unfold score
  refine Finset.sum_congr rfl fun k _ => ?_
  have el : lidx_main_v0 (ix3 b e t) k = ix3 b e k :=
    funext fun a => by match a with | ⟨0, _⟩ => rfl | ⟨1, _⟩ => rfl | ⟨2, _⟩ => rfl
  have er : ridx_main_v0 (ix3 b e t) k = ix3 b t k :=
    funext fun a => by match a with | ⟨0, _⟩ => rfl | ⟨1, _⟩ => rfl | ⟨2, _⟩ => rfl
  rw [el, er, mul_comm]

/-- The largest score of decoder row `(b, t)`: the maximum over the middle axis, folded from minus infinity and
    compared once more with it. -/
theorem top_apply (b : Fin 8) (t : Fin 2048) :
    val_main_v3 (F := Ideal) x0 x1 (ix2 b t) = top (fun d => x1 (ix3 b t d)) (fun e d => x0 (ix3 b e d)) := by
  rw [val_main_v3_apply, val_main_v2_apply, val_main_cst_0_apply]
  unfold val_main_v1 top
  show max negInf (Host.reduce (FloatOps.maximumf (F := Ideal) (φ := .f32)) (val_main_v0 (F := Ideal) x0 x1)
    (val_main_cst (F := Ideal)) reducesTo_S8x2048x2048_S8x2048_d1 h_S_ (ix2 b t)) = _
  refine congrArg (max negInf) ?_
  refine (Cert.RowOps.hostMidMax_apply (val_main_v0 (F := Ideal) x0 x1) (val_main_cst (F := Ideal)) _ (by decide) _ b t).trans ?_
  show (Finset.univ : Finset (Fin 2048)).fold max negInf (fun p => val_main_v0 (F := Ideal) x0 x1 (ix3 b p t)) = _
  exact congrArg (fun f => (Finset.univ : Finset (Fin 2048)).fold max negInf f) (funext fun e => scores_apply x0 x1 b e t)

/-- The unnormalized weight of encoder row `e` for decoder row `(b, t)`. -/
theorem weights_apply (b : Fin 8) (e t : Fin 2048) :
    val_main_v7 (F := Ideal) x0 x1 (ix3 b e t)
      = weight (fun d => x1 (ix3 b t d)) (fun e d => x0 (ix3 b e d)) e := by
  rw [val_main_v7_apply, val_main_v6_apply, val_main_v5_apply, val_main_v4_apply]
  have e5 : idx_main_v4 (idx_main_v5 (ix3 b e t)) = ix2 b t :=
    funext fun a => by match a with | ⟨0, _⟩ => rfl | ⟨1, _⟩ => rfl
  rw [e5, top_apply, scores_apply]
  rfl

/-- The weights' sum for decoder row `(b, t)`: the sum over the middle axis, from zero. -/
theorem total_apply (b : Fin 8) (t : Fin 2048) :
    val_main_v8 (F := Ideal) x0 x1 (ix2 b t) = total (fun d => x1 (ix3 b t d)) (fun e d => x0 (ix3 b e d)) := by
  rw [val_main_v8_apply, val_main_cst_1_apply]
  show Ideal.ofBits .f32 0x00000000#32 + _ = _
  rw [Ideal.ofBits_zero_f32, zero_add]
  unfold total
  refine Finset.sum_congr rfl fun k _ => ?_
  have e8 : idx_main_v8 (ix2 b t) k = ix3 b k t :=
    funext fun a => by match a with | ⟨0, _⟩ => rfl | ⟨1, _⟩ => rfl | ⟨2, _⟩ => rfl
  rw [e8, weights_apply]

/-- The share of encoder row `e` in decoder row `(b, t)`'s attention. -/
theorem shares_apply (b : Fin 8) (e t : Fin 2048) :
    val_main_v11 (F := Ideal) x0 x1 (ix3 b e t)
      = Ideal.div (weight (fun d => x1 (ix3 b t d)) (fun e d => x0 (ix3 b e d)) e)
          (total (fun d => x1 (ix3 b t d)) (fun e d => x0 (ix3 b e d))) := by
  rw [val_main_v11_apply, val_main_v10_apply, val_main_v9_apply]
  have e10 : idx_main_v9 (idx_main_v10 (ix3 b e t)) = ix2 b t :=
    funext fun a => by match a with | ⟨0, _⟩ => rfl | ⟨1, _⟩ => rfl
  rw [e10, total_apply, weights_apply]
  rfl

/-- The context at `(b, t, d)`: the attention of decoder row `(b, t)` over batch `b`'s encoder rows, lane `d`. -/
theorem context_apply (b : Fin 8) (t : Fin 2048) (d : Fin 256) :
    val_main_v12 (F := Ideal) x0 x1 (ix3 b t d)
      = attend (fun d => x1 (ix3 b t d)) (fun e d => x0 (ix3 b e d)) d := by
  rw [val_main_v12_apply]
  unfold attend
  refine Finset.sum_congr rfl fun k _ => ?_
  have el : lidx_main_v12 (ix3 b t d) k = ix3 b k t :=
    funext fun a => by match a with | ⟨0, _⟩ => rfl | ⟨1, _⟩ => rfl | ⟨2, _⟩ => rfl
  have er : ridx_main_v12 (ix3 b t d) k = ix3 b k d :=
    funext fun a => by match a with | ⟨0, _⟩ => rfl | ⟨1, _⟩ => rfl | ⟨2, _⟩ => rfl
  rw [el, er, shares_apply]

/-- The reference's result: the decoder's lanes, then the context's. -/
theorem result_eq : val_main_v13 (F := Ideal) x0 x1 = out x0 x1 := by
  funext i
  obtain ⟨b, t, c, rfl⟩ : ∃ (b : Fin 8) (t : Fin 2048) (c : Fin 512), i = ix3 b t c := ⟨i 0, i 1, i 2, eq_ix3 i⟩
  rw [out_ix3]
  unfold val_main_v13
  by_cases h : c.val < 256
  · rw [outAt_low _ _ b t c h]
    exact concatenate_pair_apply_left 2 x1 _ _ (ix3 b t c) rfl (ix3 b t ⟨c.val, h⟩)
      (fun ax => by match ax with | ⟨0, _⟩ => rfl | ⟨1, _⟩ => rfl | ⟨2, _⟩ => rfl)
  · have hc : c.val < 512 := c.isLt
    rw [outAt_high _ _ b t c h ⟨c.val - 256, by omega⟩ rfl, ← context_apply]
    exact concatenate_pair_apply_right (s₂ := S8x2048x256) 2 x1 (val_main_v12 (F := Ideal) x0 x1) _ (ix3 b t c) rfl rfl
      (ix3 b t (⟨c.val - 256, by omega⟩ : Fin 256))
      (fun ax hne => by
        match ax with
        | ⟨0, _⟩ => rfl
        | ⟨1, _⟩ => rfl
        | ⟨2, _⟩ => exact absurd rfl hne)
      (by show c.val - 256 + 256 = c.val; omega)

end Cert.ReferenceIdeal.Row

end
-- ==== Proof.lean ====
/- The proof of `Cert.Claim` for a dot-product attention layer: for each of 8 batches, every one of 2048 decoder rows
   attends over the batch's 2048 encoder rows (scores by inner product over 256 lanes, a softmax over the encoder rows, the
   encoder rows averaged by it), and the result appends that context to the decoder row: [8, 2048, 512].

   The kernel walks a grid of 8 batches × 4 tiles of 512 decoder rows with the whole batch of encoder rows beside each
   tile; the reference computes all scores of a batch at once in the transposed layout (encoder row, decoder row) and
   takes its softmax over the middle axis. On the extended reals both are one function of the two arguments,
   `Attn.out` (Proof/AttnSpec.lean): the two score products differ by the order of the factors of each term
   (commutativity of the product), every reduction is the same fold or sum over the same 2048 encoder rows, the literals
   (minus infinity under the maxima, zero under the sums) are the same words, and the changes of float format on the way
   into the matrix unit are the identity. No step uses that the inputs are finite.
     * Proof/RefRow.lean: the reference's stages, read at an index, are `Attn.out`.
     * Proof/KernelOperands, KernelScores, KernelSoftmax, KernelContext, KernelRow: the body's second store holds, row by
       row, `Attn.attend` of its decoder row over the encoder rows; the first store holds the decoder rows.
     * Proof/KernelArray.lean: the block a grid point writes back is `Attn.out` read through the point's block, the 32
       blocks cover the result, so the result array is `Attn.out` of the arguments.
   The three frames are the generated ones (the reference's: its generated run, the result dropped); the idealization
   rewrote nothing, so `preserves` is `True`. -/
import proofs.«156029_j29489245454493_1_alg».proof.Defs
import proofs.«156029_j29489245454493_1_alg».proof.Proof.Gen.Kernel
import proofs.«156029_j29489245454493_1_alg».proof.Proof.Gen.Kernel.Frame
import proofs.«156029_j29489245454493_1_alg».proof.Proof.Gen.KernelIdeal
import proofs.«156029_j29489245454493_1_alg».proof.Proof.Gen.KernelIdeal.Frame
import proofs.«156029_j29489245454493_1_alg».proof.Proof.Gen.KernelIdeal.Value
import proofs.«156029_j29489245454493_1_alg».proof.Proof.Gen.ReferenceIdeal
import proofs.«156029_j29489245454493_1_alg».proof.Proof.Gen.ReferenceIdeal.Run
import proofs.«156029_j29489245454493_1_alg».proof.Proof.Gen.ReferenceIdeal.Read
import proofs.«156029_j29489245454493_1_alg».proof.Proof.Gen.Pre_finite_inputs
import proofs.«156029_j29489245454493_1_alg».proof.Proof.KernelArray
import proofs.«156029_j29489245454493_1_alg».proof.Proof.RefRow

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at `Attn.out` of the encoder and decoder arrays: the kernel's by its
    blocks (Proof/KernelArray.lean), the reference's stage by stage (Proof/RefRow.lean), from arguments that agree. -/
theorem algebraic : Cert.algebraic_KernelIdeal_ReferenceIdeal := by
  intro m ρ m' ρ' _ hagree
  refine ⟨fun c => Cert.Attn.out (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v13_eq, Cert.ReferenceIdeal.Row.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
